-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x16 : Shape := ⟨2, ![256, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S128x256 .f32) (main_arg4 : FVec F S256 .f32) (main_arg5 : FVec F S256x16 .f32) (main_arg6 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x16 .f32 := Host.absf main_arg5
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x16 : Shape := ⟨2, ![256, 16]⟩
abbrev S16 : Shape := ⟨1, ![16]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S50000x16 : Shape := ⟨2, ![50000, 16]⟩
abbrev S5000x16 : Shape := ⟨2, ![5000, 16]⟩
abbrev S5000x256 : Shape := ⟨2, ![5000, 256]⟩
abbrev S1x256 : Shape := ⟨2, ![1, 256]⟩
abbrev S1x16 : Shape := ⟨2, ![1, 16]⟩

abbrev nBuf : Space → Nat
  | .hbm => 42
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x256, .f32⟩
  | .hbm, ⟨4, _⟩ => ⟨S256, .f32⟩
  | .hbm, ⟨5, _⟩ => ⟨S256x16, .f32⟩
  | .hbm, ⟨6, _⟩ => ⟨S16, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x1, .f32⟩
  | .hbm, ⟨41, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x256, .f32⟩
  | .local _ .vmem, ⟨11, _⟩ => ⟨S256, .f32⟩
  | .local _ .vmem, ⟨12, _⟩ => ⟨S256x16, .f32⟩
  | .local _ .vmem, ⟨13, _⟩ => ⟨S16, .f32⟩
  | .local _ .vmem, ⟨14, _⟩ => ⟨S5000x16, .f32⟩
  | .local _ .vmem, ⟨15, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  broadcasts_S5000x1_S5000x128 : S5000x1.Broadcasts S5000x128
  bcast_S_S50000x128 : S_.BroadcastsInDim S50000x128 (![] : Fin 0 → Fin S50000x128.rank)
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x16_S256x16_0_0 : ∀ a, (![0, 0] : Fin 2 → Nat) a + S256x16.size a ≤ S256x16.size a
  h_S256x16 : 0 < S256x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  dot_S5000x256_S256x16_S5000x16_1_0_0_1_n_n_wf : DotDims.WF S5000x256 S256x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x16.size a ≤ S256x16.size a
  hwx1_4 : ∀ i : grid1.Coords, EltTy.bits .f32 = 32 ∨ (Rect.block (s := S256x16) S256x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16.size a ≤ S16.size a
  hwx1_5 : ∀ i : grid1.Coords, EltTy.bits .f32 = 32 ∨ (Rect.block (s := S16) S16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x16.size a ≤ S50000x16.size a
  hwx1_6 : ∀ i : grid1.Coords, EltTy.bits .f32 = 32 ∨ (Rect.block (s := S50000x16) S5000x16.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S256x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S5000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x16 : Shape := ⟨2, ![256, 16]⟩
abbrev S16 : Shape := ⟨1, ![16]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1x256 : Shape := ⟨2, ![1, 256]⟩
abbrev S50000x16 : Shape := ⟨2, ![50000, 16]⟩
abbrev S1x16 : Shape := ⟨2, ![1, 16]⟩

abbrev nBuf : Space → Nat
  | .hbm => 65
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x256, .f32⟩
  | .hbm, ⟨4, _⟩ => ⟨S256, .f32⟩
  | .hbm, ⟨5, _⟩ => ⟨S256x16, .f32⟩
  | .hbm, ⟨6, _⟩ => ⟨S16, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S_, .f32⟩
  | .hbm, ⟨51, _⟩ => ⟨S50000x256, .f32⟩
  | .hbm, ⟨52, _⟩ => ⟨S50000x256, .f32⟩
  | .hbm, ⟨53, _⟩ => ⟨S50000x16, .f32⟩
  | .hbm, ⟨54, _⟩ => ⟨S1x16, .f32⟩
  | .hbm, ⟨55, _⟩ => ⟨S50000x16, .f32⟩
  | .hbm, ⟨56, _⟩ => ⟨S50000x16, .f32⟩
  | .hbm, ⟨57, _⟩ => ⟨S50000x16, .f32⟩
  | .hbm, ⟨58, _⟩ => ⟨S50000x16, .f32⟩
  | .hbm, ⟨59, _⟩ => ⟨S_, .f32⟩
  | .hbm, ⟨60, _⟩ => ⟨S50000x16, .f32⟩
  | .hbm, ⟨61, _⟩ => ⟨S50000x16, .f32⟩
  | .hbm, ⟨62, _⟩ => ⟨S_, .f32⟩
  | .hbm, ⟨63, _⟩ => ⟨S50000x16, .f32⟩
  | .hbm, ⟨64, _⟩ => ⟨S50000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x16_S50000x16_1_0_0_1_n_n_wf : DotDims.WF S50000x256 S256x16 S50000x16 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x16_S50000x16_1_0_0_1_n_n : DotDims S50000x256 S256x16 S50000x16 where
  lhsContracting := [1]
  rhsContracting := [0]
  lhsNonContracting := [0]
  rhsNonContracting := [1]
  lhsBatch := []
  rhsBatch := []
  wf := dot_S50000x256_S256x16_S50000x16_1_0_0_1_n_n_wf

class Facts : Prop extends Facts₀ where

variable [Facts]
-- ==== Proof.KernelRun.lean ====
/-
  The run of the two-call program with its result kept: every weakly fair execution ends with the
  result array holding what the second call's write-backs leave (the last boundary of the fold of
  buffer contents through the program) and the seven argument arrays as launched.
-/
import proofs.«158624_j53266184405048_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run over its eight segments (five host stretches, the first call, a host stretch, the
    second call), the last thread state read against the final memory: the result buffer is read at the
    last boundary's contents, each argument walks back through the fold to the launch memory. -/
theorem run_main : θ_run defs (onTc (τ := τ) (main (F := F))) ⟨m, fun _ => 0, ρ⟩ (fun r => ∀ c : Dev nD,
      r.2.mem ((c.tc : Thread nD τ).loc main_v22) = W8 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v22 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

/-- The result buffer's last contents are the second call's output array after its ten write-backs. -/
theorem result_arr (c : Dev nD) :
    W8 m ρ c (Proc.devRef .tc main_v22) = (dat1 (V7 m ρ) c).arrAt 6 cfg1.N := W8_arr m ρ c 6

end Cert.KernelIdeal.RunValue

end
-- ==== Proof.LibColumns.lean ====
/-
  Column vectors read at an index: a vector of `a` entries viewed as an `a × 1` column, a column
  broadcast along its rows to an `a × b` matrix, a `1 × 1` matrix broadcast to every entry of an
  `a × b` matrix; and a reduction along the rows of an `a × b` matrix read as a sum, or as a running
  maximum, over the row's entries.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index of an `[a, b]` matrix over row `p` at position `k` of the reduced axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

end Cert.Columns

end
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.LibRowBroadcast.lean ====
/-
  A `1 × b` row spread over the rows of an `a × b` matrix read at an entry: entry `(p, q)` of the spread matrix is
  entry `(0, q)` of the row.
-/
import Idealize.ShloMosaic.Lib.Pipeline.Value
import Idealize.ShloMosaic.Lib.ValueIdx

noncomputable section

namespace Cert.RowBroadcast

open Idealize.ShloMosaic Idealize.ShloMosaic.ValueIdx

/-- A `[1, b]` row broadcast to `[a, b]` reads, at `(p, q)`, the row at `q`: the unit axis is read at 0, the other
    axis at its own coordinate. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end Cert.RowBroadcast

end
-- ==== Proof.LibVecRow.lean ====
/-
  A vector of `b` entries stored as a `1 × b` row (a reshape that adds a leading unit axis) read at an entry:
  entry `(u, q)` of the row is entry `q` of the vector.
-/
import Idealize.ShloMosaic.Lib.Pipeline.Value
import Idealize.ShloMosaic.Lib.ValueIdx

noncomputable section

namespace Cert.VecRow

open Idealize.ShloMosaic Idealize.ShloMosaic.ValueIdx

/-- A `[b]` vector reshaped to a `[1, b]` row reads, at `(u, q)`, the vector at `q`: both have row-major position `q`. -/
theorem row_of_vec_apply {α : Type} {b : ℕ} (h : (⟨1, ![b]⟩ : Shape).ShapeCasts ⟨2, ![1, b]⟩) (x : (⟨1, ![b]⟩ : Shape).Idx → α)
    (u : Fin 1) (q : Fin b) : shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have := u.isLt
  have hu : u.val = 0 := by omega
  rw [hu]; omega

end Cert.VecRow

end
-- ==== Proof.Bodies.lean ====
/-
  The two kernel bodies read at an entry, on the extended reals.
  The first body scales row p of its feature block by the inverse square root of the row's degree, the degree
  block being a column. The second scales the aggregated block the same way, multiplies by the first weight
  matrix, adds the first bias along the rows, clamps below at the zero word, multiplies by the second weight
  matrix, adds the second bias and applies the logistic function. A change of float format is the identity
  and a product into a zero accumulator is the plain sum over the contracted position.
-/
import proofs.«158624_j53266184405048_1_alg».proof.Proof.Gen.KernelIdeal.Skeleton
import proofs.«158624_j53266184405048_1_alg».proof.Proof.LibColumns
import proofs.«158624_j53266184405048_1_alg».proof.Proof.LibMatmul
import proofs.«158624_j53266184405048_1_alg».proof.Proof.LibRowBroadcast
import proofs.«158624_j53266184405048_1_alg».proof.Proof.LibVecRow
import Idealize.ShloMosaic.Lib.Pipeline.Value
import Idealize.ShloMosaic.Lib.ValueIdx
import Idealize.ShloMosaic.PureOps.Ideal.Laws

noncomputable section

namespace Cert.KernelIdeal.Bodies

open Cert.KernelIdeal Cert.KernelIdeal.Gen Idealize.ShloMosaic Idealize.ShloMosaic.ValueIdx

/-! ## Where the two products' operand entries come from -/

theorem d1_l0 (i : S5000x256.Idx) (q : dot_S5000x128_S128x256_S5000x256_1_0_0_1_n_n.contr.Idx) : (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem d1_l1 (i : S5000x256.Idx) (q : dot_S5000x128_S128x256_S5000x256_1_0_0_1_n_n.contr.Idx) : (dot_S5000x128_S128x256_S5000x256_1_0_0_1_n_n.lhsIdx i q 1).val = (q ⟨0, by decide⟩).val :=
  dot_S5000x128_S128x256_S5000x256_1_0_0_1_n_n.lhsIdx_val_of_single rfl i q
theorem d1_r0 (i : S5000x256.Idx) (q : dot_S5000x128_S128x256_S5000x256_1_0_0_1_n_n.contr.Idx) : (dot_S5000x128_S128x256_S5000x256_1_0_0_1_n_n.rhsIdx i q 0).val = (q ⟨0, by decide⟩).val :=
  dot_S5000x128_S128x256_S5000x256_1_0_0_1_n_n.rhsIdx_val_of_single rfl i q
theorem d1_r1 (i : S5000x256.Idx) (q : dot_S5000x128_S128x256_S5000x256_1_0_0_1_n_n.contr.Idx) : (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

theorem d2_l0 (i : S5000x16.Idx) (q : dot_S5000x256_S256x16_S5000x16_1_0_0_1_n_n.contr.Idx) : (dot_S5000x256_S256x16_S5000x16_1_0_0_1_n_n.lhsIdx i q 0).val = (i 0).val := by
  unfold DotDims.lhsIdx
  rw [dif_neg (show ¬(0 : Fin S5000x256.rank) ∈ dot_S5000x256_S256x16_S5000x16_1_0_0_1_n_n.lhsBatch by decide), dif_pos (show (0 : Fin S5000x256.rank) ∈ dot_S5000x256_S256x16_S5000x16_1_0_0_1_n_n.lhsNonContracting by decide)]
  rfl
theorem d2_l1 (i : S5000x16.Idx) (q : dot_S5000x256_S256x16_S5000x16_1_0_0_1_n_n.contr.Idx) : (dot_S5000x256_S256x16_S5000x16_1_0_0_1_n_n.lhsIdx i q 1).val = (q ⟨0, by decide⟩).val :=
  dot_S5000x256_S256x16_S5000x16_1_0_0_1_n_n.lhsIdx_val_of_single rfl i q
theorem d2_r0 (i : S5000x16.Idx) (q : dot_S5000x256_S256x16_S5000x16_1_0_0_1_n_n.contr.Idx) : (dot_S5000x256_S256x16_S5000x16_1_0_0_1_n_n.rhsIdx i q 0).val = (q ⟨0, by decide⟩).val :=
  dot_S5000x256_S256x16_S5000x16_1_0_0_1_n_n.rhsIdx_val_of_single rfl i q
theorem d2_r1 (i : S5000x16.Idx) (q : dot_S5000x256_S256x16_S5000x16_1_0_0_1_n_n.contr.Idx) : (dot_S5000x256_S256x16_S5000x16_1_0_0_1_n_n.rhsIdx i q 1).val = (i 1).val := by
  unfold DotDims.rhsIdx
  rw [dif_neg (show ¬(1 : Fin S256x16.rank) ∈ dot_S5000x256_S256x16_S5000x16_1_0_0_1_n_n.rhsBatch by decide), dif_pos (show (1 : Fin S256x16.rank) ∈ dot_S5000x256_S256x16_S5000x16_1_0_0_1_n_n.rhsNonContracting by decide)]
  rfl

/-! ## The first body -/

/-- Entry (p, q) of the first body's stored block: the feature times the inverse square root of row p's degree. -/
theorem prescale_apply (d : FVec Ideal S5000x1 .f32) (x : FVec Ideal S5000x128 .f32) (p : Fin 5000) (q : Fin 128) :
    k0_pay1 (F := Ideal) d x (ix2 p q) = x (ix2 p q) * Ideal.rsqrt (d (ix2 p (0 : Fin 1))) := by
  show mulf x (broadcastTo S5000x128 (rsqrt (shapeCast S5000x1 d shapeCasts_S5000x1_S5000x1)) broadcasts_S5000x1_S5000x128) (ix2 p q) = _
  rw [shapeCast_self, mulf_apply, Cert.Columns.broadcastTo_a1_ab_apply]
  rfl

/-! ## The second body -/

/-- The hidden layer of the second body from the degree-scaled block: product with the first weights, bias along
    the rows, clamp below at the zero word. -/
def hidden (v : FVec Ideal S5000x128 .f32) (w1 : FVec Ideal S128x256 .f32) (b1 : FVec Ideal S256 .f32) : FVec Ideal S5000x256 .f32 :=
  maximumf (addf (matmul dot_S5000x128_S128x256_S5000x256_1_0_0_1_n_n none (truncf .bf16 v bitsLt_bf16_f32) (truncf .bf16 w1 bitsLt_bf16_f32) (constant (F := Ideal) S5000x256 .f32 0x00000000#32))
      (broadcastTo S5000x256 (shapeCast S1x256 b1 shapeCasts_S256_S1x256) broadcasts_S1x256_S5000x256))
    (broadcast S5000x256 (Scalar.ofBits (F := Ideal) .f32 0x00000000#32))

theorem hidden_apply (v : FVec Ideal S5000x128 .f32) (w1 : FVec Ideal S128x256 .f32) (b1 : FVec Ideal S256 .f32) (p : Fin 5000) (k : Fin 256) :
    hidden v w1 b1 (ix2 p k) = max ((∑ j : Fin 128, v (ix2 p j) * w1 (ix2 j k)) + b1 (ix1 k)) (Ideal.ofBits .f32 0x00000000#32) := by
  unfold hidden
  rw [maximumf_apply, addf_apply, Cert.PlainDot.matmul_zero_apply dot_S5000x128_S128x256_S5000x256_1_0_0_1_n_n none rfl rfl d1_l0 d1_l1 d1_r0 d1_r1,
    Cert.RowBroadcast.broadcastTo_1b_ab_apply, Cert.VecRow.row_of_vec_apply]
  rfl

/-- The second body's stored block as one term over the hidden layer. -/
theorem k1_pay1_eq (d : FVec Ideal S5000x1 .f32) (a : FVec Ideal S5000x128 .f32) (w1 : FVec Ideal S128x256 .f32) (b1 : FVec Ideal S256 .f32)
    (w2 : FVec Ideal S256x16 .f32) (b2 : FVec Ideal S16 .f32) :
    k1_pay1 (F := Ideal) d a w1 b1 w2 b2
      = logistic (addf (matmul dot_S5000x256_S256x16_S5000x16_1_0_0_1_n_n none
            (truncf .bf16 (hidden (mulf (shapeCast S5000x128 a shapeCasts_S5000x128_S5000x128)
              (broadcastTo S5000x128 (rsqrt (shapeCast S5000x1 d shapeCasts_S5000x1_S5000x1)) broadcasts_S5000x1_S5000x128)) w1 b1) bitsLt_bf16_f32)
            (truncf .bf16 w2 bitsLt_bf16_f32) (constant (F := Ideal) S5000x16 .f32 0x00000000#32))
          (broadcastTo S5000x16 (shapeCast S1x16 b2 shapeCasts_S16_S1x16) broadcasts_S1x16_S5000x16)) := rfl

/-- Entry (p, c) of the second body's stored block. -/
theorem head_apply (d : FVec Ideal S5000x1 .f32) (a : FVec Ideal S5000x128 .f32) (w1 : FVec Ideal S128x256 .f32) (b1 : FVec Ideal S256 .f32)
    (w2 : FVec Ideal S256x16 .f32) (b2 : FVec Ideal S16 .f32) (p : Fin 5000) (c : Fin 16) :
    k1_pay1 (F := Ideal) d a w1 b1 w2 b2 (ix2 p c)
      = Ideal.logistic ((∑ k : Fin 256,
            max ((∑ j : Fin 128, (a (ix2 p j) * Ideal.rsqrt (d (ix2 p (0 : Fin 1)))) * w1 (ix2 j k)) + b1 (ix1 k)) (Ideal.ofBits .f32 0x00000000#32)
              * w2 (ix2 k c)) + b2 (ix1 c)) := by
  rw [k1_pay1_eq]
  show Ideal.logistic ((addf (F := Ideal) (s := S5000x16) (φ := .f32) _ _) (ix2 p c)) = _
  rw [addf_apply, Cert.PlainDot.matmul_zero_apply dot_S5000x256_S256x16_S5000x16_1_0_0_1_n_n none rfl rfl d2_l0 d2_l1 d2_r0 d2_r1,
    Cert.RowBroadcast.broadcastTo_1b_ab_apply, Cert.VecRow.row_of_vec_apply]
  refine congrArg Ideal.logistic (congrArg (· + b2 (ix1 c)) (Finset.sum_congr rfl fun k _ => ?_))
  rw [truncf_apply, truncf_apply, hidden_apply]
  refine congrArg (fun z => max (z + b1 (ix1 k)) (Ideal.ofBits .f32 0x00000000#32) * w2 (ix2 k c)) (Finset.sum_congr rfl fun j _ => ?_)
  rw [mulf_apply, shapeCast_self, shapeCast_self, Cert.Columns.broadcastTo_a1_ab_apply]
  rfl

end Cert.KernelIdeal.Bodies

end
-- ==== Proof.Spec.lean ====
/-
  What the program computes, entry by entry, on the extended reals.
  `scaled x d`: row p of the feature matrix times the inverse square root of d(p), the degrees given as a column.
  `head a d w₁ b₁ w₂ b₂`: row p of the aggregated matrix scaled the same way, then two dense layers — the first
  with its bias and a clamp below at the zero word, the second with its bias and the logistic function:
    head(p, c) = logistic( Σ_k max( Σ_j (a(p,j) · d(p)^(-1/2)) · w₁(j,k) + b₁(k), 0 ) · w₂(k,c) + b₂(c) ).
-/
import Idealize.ShloMosaic.PureOps.Ideal
import Idealize.ShloMosaic.Lib.ValueIdx

noncomputable section

namespace Cert.Gcn

open Idealize.ShloMosaic Idealize.ShloMosaic.ValueIdx

/-- The row and the column of a matrix index, at literal extents. -/
abbrev row {n m : ℕ} (i : (⟨2, ![n, m]⟩ : Shape).Idx) : Fin n := ⟨(i 0).val, (i 0).isLt⟩
abbrev col {n m : ℕ} (i : (⟨2, ![n, m]⟩ : Shape).Idx) : Fin m := ⟨(i 1).val, (i 1).isLt⟩

theorem row_ix2 {n m : ℕ} (p : Fin n) (q : Fin m) : row (ix2 p q) = p := rfl
theorem col_ix2 {n m : ℕ} (p : Fin n) (q : Fin m) : col (ix2 p q) = q := rfl

/-- Features scaled by the inverse square root of their row's degree. -/
def scaled (x : FVec Ideal ⟨2, ![50000, 128]⟩ .f32) (d : FVec Ideal ⟨2, ![50000, 1]⟩ .f32) : FVec Ideal ⟨2, ![50000, 128]⟩ .f32 :=
  fun i => x i * Ideal.rsqrt (d (ix2 (row i) (0 : Fin 1)))

/-- The degree-scaled aggregate through the two dense layers. -/
def head (a : FVec Ideal ⟨2, ![50000, 128]⟩ .f32) (d : FVec Ideal ⟨2, ![50000, 1]⟩ .f32)
    (w₁ : FVec Ideal ⟨2, ![128, 256]⟩ .f32) (b₁ : FVec Ideal ⟨1, ![256]⟩ .f32)
    (w₂ : FVec Ideal ⟨2, ![256, 16]⟩ .f32) (b₂ : FVec Ideal ⟨1, ![16]⟩ .f32) : FVec Ideal ⟨2, ![50000, 16]⟩ .f32 :=
  fun i => Ideal.logistic ((∑ k : Fin 256,
      max ((∑ j : Fin 128, (a (ix2 (row i) j) * Ideal.rsqrt (d (ix2 (row i) (0 : Fin 1)))) * w₁ (ix2 j k)) + b₁ (ix1 k))
          (Ideal.ofBits .f32 0x00000000#32)
        * w₂ (ix2 k (col i))) + b₂ (ix1 (col i)))

end Cert.Gcn

end
-- ==== Proof.Region0.lean ====
/-
  The first call's output array after its ten write-backs, as one function of the arrays the call finds.
  Point t handles rows 5000·t … 5000·t + 4999: its feature block and its degree block are those rows of
  their arrays, what it writes back is those rows of `scaled`, and the ten row blocks cover all 50000 rows.
-/
import proofs.«158624_j53266184405048_1_alg».proof.Proof.Gen.KernelIdeal.Frame
import proofs.«158624_j53266184405048_1_alg».proof.Proof.Bodies
import proofs.«158624_j53266184405048_1_alg».proof.Proof.Spec
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The three index maps over the grid: every window's block row is the point's number, its block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of `scaled` of the feature array and the degree column as found. -/
theorem flushed_eq (c : Dev nD) (t : Fin cfg0.N) :
    (dat0 V c).flushed 2 t = ((cfg0.win 2).blk t).view.read (Elt Ideal) (Cert.Gcn.scaled (V c main_arg0) (V c main_v9)) := by
  show (cfg0.win 2).cut (grid0.coords t) ((dat0 V c).after 2 t) = _
  rw [after0_2]
  unfold out0_2
  rw [View.canon_unit_zero hz]
  simp only [View.ld_unit_zero (S := S5000x128) hz, View.ld_unit_zero (S := S5000x1) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k0_pay1 (F := Ideal) (iblk0 V c 1 t) (iblk0 V c 0 t) (ix2 p q)
    = Cert.Gcn.scaled (V c main_arg0) (V c main_v9) (((cfg0.win 2).blk t).view.emb (ix2 p q))
  refine (Cert.KernelIdeal.Bodies.prescale_apply (iblk0 V c 1 t) (iblk0 V c 0 t) p q).trans ?_
  have hb0 : iblk0 V c 0 t (ix2 p q) = V c main_arg0 (((cfg0.win 2).blk t).view.emb (ix2 p q)) := by
    show V c main_arg0 (((cfg0.win 0).blk t).view.emb (ix2 p q)) = _
    refine congrArg (V c main_arg0) ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * q.val = win0_2.index t (1 : Fin 2) * 128 + 1 * q.val; omega
  have hb1 : iblk0 V c 1 t (ix2 p (0 : Fin 1)) = V c main_v9 (ix2 (Cert.Gcn.row (((cfg0.win 2).blk t).view.emb (ix2 p q))) (0 : Fin 1)) := by
    show V c main_v9 (((cfg0.win 1).blk t).view.emb (ix2 p (0 : Fin 1))) = _
    refine congrArg (V c main_v9) ?_
    funext a; apply Fin.ext
    match a with
    | ⟨0, _⟩ => show win0_1.index t (0 : Fin 2) * 5000 + 1 * p.val = win0_2.index t (0 : Fin 2) * 5000 + 1 * p.val; omega
    | ⟨1, _⟩ => show win0_1.index t (1 : Fin 2) * 1 + 1 * 0 = 0; omega
  unfold Cert.Gcn.scaled
  rw [hb0, hb1]

/-- An index of the array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v10).slice (win0_2.rect t)).set ↔ _
  rw [View.set_slice_whole, Rect.mem_set_unit]
  exact Iff.rfl

/-- Row r lies in the block of point r / 5000. -/
theorem cover (i : S50000x128.Idx) : ∃ t : Fin cfg0.N, (cfg0.win 2).flush t = true ∧ i ∈ ((cfg0.win 2).blk t).view.set := by
  have hN : grid0.N = 10 := N_0
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show (i 0).val / 5000 < grid0.N; omega⟩, rfl⟩
  refine ⟨t, flush0_2 t, ?_⟩
  rw [mem_blk]
  have hf := idx_facts t
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The first call's output array after the call. -/
theorem final (c : Dev nD) : (dat0 V c).arrAt 2 cfg0.N = Cert.Gcn.scaled (V c main_arg0) (V c main_v9) :=
  (dat0 V c).arrAt_eq_of_cover 2 _ (fun t _ => flushed_eq V c t) cover

end Cert.KernelIdeal.Region0

end
-- ==== Proof.Region1.lean ====
/-
  The second call's output array after its ten write-backs, as one function of the arrays the call finds.
  Point t handles rows 5000·t … 5000·t + 4999 of the aggregated matrix, of the degree column and of the output;
  the two weight matrices and the two biases are read whole at every point. What point t writes back is those
  rows of `head`, and the ten row blocks cover all 50000 rows.
-/
import proofs.«158624_j53266184405048_1_alg».proof.Proof.Gen.KernelIdeal.Frame
import proofs.«158624_j53266184405048_1_alg».proof.Proof.Bodies
import proofs.«158624_j53266184405048_1_alg».proof.Proof.Spec
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The seven index maps over the grid: the three row-blocked windows sit at block row t, block column 0;
    the four parameter windows at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- What point t writes back is block t of `head` of the arrays as found. -/
theorem flushed_eq (c : Dev nD) (t : Fin cfg1.N) :
    (dat1 V c).flushed 6 t = ((cfg1.win 6).blk t).view.read (Elt Ideal)
      (Cert.Gcn.head (V c main_v20) (V c main_v21) (V c main_arg3) (V c main_arg4) (V c main_arg5) (V c main_arg6)) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S5000x1) hz2, View.ld_unit_zero (S := S128x256) hz2,
    View.ld_unit_zero (S := S256) hz1, View.ld_unit_zero (S := S256x16) hz2, View.ld_unit_zero (S := S16) hz1]
  obtain ⟨e00, e01, e10, e11, e20, e21, e30, e40, e41, e50, e60, e61⟩ := idx_facts t
  funext j
  obtain ⟨p, cc, rfl⟩ : ∃ (p : Fin 5000) (cc : Fin 16), j = ix2 p cc := ⟨j 0, j 1, eq_ix2 j⟩
  show k1_pay1 (F := Ideal) (iblk1 V c 1 t) (iblk1 V c 0 t) (iblk1 V c 2 t) (iblk1 V c 3 t) (iblk1 V c 4 t) (iblk1 V c 5 t) (ix2 p cc)
    = Cert.Gcn.head (V c main_v20) (V c main_v21) (V c main_arg3) (V c main_arg4) (V c main_arg5) (V c main_arg6)
        (((cfg1.win 6).blk t).view.emb (ix2 p cc))
  refine (Cert.KernelIdeal.Bodies.head_apply (iblk1 V c 1 t) (iblk1 V c 0 t) (iblk1 V c 2 t) (iblk1 V c 3 t) (iblk1 V c 4 t) (iblk1 V c 5 t) p cc).trans ?_
  have hb0 : ∀ j : Fin 128, iblk1 V c 0 t (ix2 p j) = V c main_v20 (ix2 (Cert.Gcn.row (((cfg1.win 6).blk t).view.emb (ix2 p cc))) j) := fun j => by
    show V c main_v20 (((cfg1.win 0).blk t).view.emb (ix2 p j)) = _
    refine congrArg (V c main_v20) ?_
    funext a; apply Fin.ext
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * j.val = j.val; omega
  have hb1 : iblk1 V c 1 t (ix2 p (0 : Fin 1)) = V c main_v21 (ix2 (Cert.Gcn.row (((cfg1.win 6).blk t).view.emb (ix2 p cc))) (0 : Fin 1)) := by
    show V c main_v21 (((cfg1.win 1).blk t).view.emb (ix2 p (0 : Fin 1))) = _
    refine congrArg (V c main_v21) ?_
    funext a; apply Fin.ext
    match a with
    | ⟨0, _⟩ => show win1_1.index t (0 : Fin 2) * 5000 + 1 * p.val = win1_6.index t (0 : Fin 2) * 5000 + 1 * p.val; omega
    | ⟨1, _⟩ => show win1_1.index t (1 : Fin 2) * 1 + 1 * 0 = 0; omega
  have hb2 : ∀ (j : Fin 128) (k : Fin 256), iblk1 V c 2 t (ix2 j k) = V c main_arg3 (ix2 j k) := fun j k => by
    show V c main_arg3 (((cfg1.win 2).blk t).view.emb (ix2 j k)) = _
    refine congrArg (V c main_arg3) ?_
    funext a; apply Fin.ext
    match a with
    | ⟨0, _⟩ => show win1_2.index t (0 : Fin 2) * 128 + 1 * j.val = j.val; omega
    | ⟨1, _⟩ => show win1_2.index t (1 : Fin 2) * 256 + 1 * k.val = k.val; omega
  have hb3 : ∀ k : Fin 256, iblk1 V c 3 t (ix1 k) = V c main_arg4 (ix1 k) := fun k => by
    show V c main_arg4 (((cfg1.win 3).blk t).view.emb (ix1 k)) = _
    refine congrArg (V c main_arg4) ?_
    funext a; apply Fin.ext
    match a with
    | ⟨0, _⟩ => show win1_3.index t (0 : Fin 1) * 256 + 1 * k.val = k.val; omega
  have hb4 : ∀ k : Fin 256, iblk1 V c 4 t (ix2 k cc) = V c main_arg5 (ix2 k (Cert.Gcn.col (((cfg1.win 6).blk t).view.emb (ix2 p cc)))) := fun k => by
    show V c main_arg5 (((cfg1.win 4).blk t).view.emb (ix2 k cc)) = _
    refine congrArg (V c main_arg5) ?_
    funext a; apply Fin.ext
    match a with
    | ⟨0, _⟩ => show win1_4.index t (0 : Fin 2) * 256 + 1 * k.val = k.val; omega
    | ⟨1, _⟩ => show win1_4.index t (1 : Fin 2) * 16 + 1 * cc.val = win1_6.index t (1 : Fin 2) * 16 + 1 * cc.val; omega
  have hb5 : iblk1 V c 5 t (ix1 cc) = V c main_arg6 (ix1 (Cert.Gcn.col (((cfg1.win 6).blk t).view.emb (ix2 p cc)))) := by
    show V c main_arg6 (((cfg1.win 5).blk t).view.emb (ix1 cc)) = _
    refine congrArg (V c main_arg6) ?_
    funext a; apply Fin.ext
    match a with
    | ⟨0, _⟩ => show win1_5.index t (0 : Fin 1) * 16 + 1 * cc.val = win1_6.index t (1 : Fin 2) * 16 + 1 * cc.val; omega
  unfold Cert.Gcn.head
  simp only [hb0, hb1, hb2, hb3, hb4, hb5]

/-- An index of the array is in point t's block iff each coordinate is in the block's range on its axis. -/
theorem mem_blk (t : Fin cfg1.N) (i : S50000x16.Idx) :
    i ∈ ((cfg1.win 6).blk t).view.set ↔ ∀ a : Fin 2, win1_6.index t a * S5000x16.size a ≤ (i a).val ∧ (i a).val < win1_6.index t a * S5000x16.size a + S5000x16.size a := by
  show i ∈ ((View.whole main_v22).slice (win1_6.rect t)).set ↔ _
  rw [View.set_slice_whole, Rect.mem_set_unit]
  exact Iff.rfl

/-- Row r lies in the block of point r / 5000. -/
theorem cover (i : S50000x16.Idx) : ∃ t : Fin cfg1.N, (cfg1.win 6).flush t = true ∧ i ∈ ((cfg1.win 6).blk t).view.set := by
  have hN : grid1.N = 10 := N_1
  have hi0 : (i 0).val < 50000 := (i 0).isLt
  have hi1 : (i 1).val < 16 := (i 1).isLt
  obtain ⟨t, ht⟩ : ∃ t : Fin cfg1.N, t.val = (i 0).val / 5000 :=
    ⟨⟨(i 0).val / 5000, by show (i 0).val / 5000 < grid1.N; omega⟩, rfl⟩
  refine ⟨t, flush1_6 t, ?_⟩
  rw [mem_blk]
  have hf := idx_facts t
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 16 ≤ (i 1).val ∧ (i 1).val < win1_6.index t (1 : Fin 2) * 16 + 16; omega

/-- The second call's output array after the call. -/
theorem final (c : Dev nD) : (dat1 V c).arrAt 6 cfg1.N
    = Cert.Gcn.head (V c main_v20) (V c main_v21) (V c main_arg3) (V c main_arg4) (V c main_arg5) (V c main_arg6) :=
  (dat1 V c).arrAt_eq_of_cover 6 _ (fun t _ => flushed_eq V c t) cover

end Cert.KernelIdeal.Region1

end
-- ==== Proof.RefValue.lean ====
/-
  The reference's stages are the same two functions.
  Its scaled features multiply each feature by the inverse square root of the row's clamped out-degree, spread
  first to a column and then along the row: `scaled` of the features and the degree column. Its result divides
  one by one plus the exponential of the negated logits, which is the logistic function of the logits; the
  logits are the two dense layers of the aggregated features scaled by the inverse square root of the row's
  clamped in-degree: `head`. The aggregation itself (a gather of rows and a scatter-add) is left as it stands.
-/
import proofs.«158624_j53266184405048_1_alg».proof.Proof.Gen.ReferenceIdeal.Read
import proofs.«158624_j53266184405048_1_alg».proof.Proof.Spec
import proofs.«158624_j53266184405048_1_alg».proof.Proof.LibColumns
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx

/-- The aggregation along the edges, of any feature matrix: the rows at the edges' sources (a negative row number
    wrapped by the row count) gathered, then scatter-added into zeros at the edges' destinations. -/
def aggregate {F : FTy → Type} [FloatOps F] (X : (⟨S50000x128, .f32⟩ : BufTy).Contents (Elt F))
    (x1 x2 : (⟨S800000, .i32⟩ : BufTy).Contents (Elt F)) : (⟨S50000x128, .f32⟩ : BufTy).Contents (Elt F) :=
  Host.scatterAdd scatter_S50000x128_S800000x1_S800000x128_1_0_0_1 (val_main_v20 (F := F)) (val_main_v21 (F := F) x2)
    (Host.gather gather_S50000x128_S800000x1_S800000x128_1_0_n_n_0_1_1128 X (val_main_v18 (F := F) x1))

/-- The reference aggregates its scaled features. -/
theorem aggregate_eq {F : FTy → Type} [FloatOps F] (x0 : (⟨S50000x128, .f32⟩ : BufTy).Contents (Elt F))
    (x1 x2 : (⟨S800000, .i32⟩ : BufTy).Contents (Elt F)) :
    val_main_v22 (F := F) x0 x1 x2 = aggregate (val_main_v12 (F := F) x0 x1) x1 x2 := rfl

/-- The reference's scaled features are `scaled` of the features and its clamped out-degrees as a column. -/
theorem scaled_eq (x0 : (⟨S50000x128, .f32⟩ : BufTy).Contents (Elt Ideal)) (x1 : (⟨S800000, .i32⟩ : BufTy).Contents (Elt Ideal)) (h : S50000.ShapeCasts S50000x1) :
    val_main_v12 (F := Ideal) x0 x1 = Cert.Gcn.scaled x0 (shapeCast S50000x1 (val_main_v4 (F := Ideal) x1) h) := by
  funext i
  obtain ⟨p, q, rfl⟩ : ∃ (p : Fin 50000) (q : Fin 128), i = ix2 p q := ⟨i 0, i 1, eq_ix2 i⟩
  rw [val_main_v12_apply, val_main_v11_apply, val_main_v10_apply, val_main_v9_apply]
  unfold Cert.Gcn.scaled
  rw [Cert.Columns.shapeCast_a_a1_apply]
  have e : idx_main_v10 (idx_main_v11 (ix2 p q)) = ix1 p := funext fun a => Fin.ext (by match a with | ⟨0, _⟩ => rfl)
  rw [e]
  generalize val_main_v4 (F := Ideal) x1 = d
  rfl

/-- One over one plus the exponential of the negation, with both ones the float word of one, is the logistic function. -/
theorem logistic_spelt (y : EReal) :
    FloatOps.hostDivf (F := Ideal) (φ := .f32) (FloatOps.ofBits .f32 0x3F800000#32)
      (FloatOps.addf (FloatOps.ofBits .f32 0x3F800000#32) (FloatOps.hostUnary .exp (FloatOps.hostNegf y))) = Ideal.logistic y := by
  show Ideal.div (Ideal.ofBits .f32 0x3F800000#32) (Ideal.ofBits .f32 0x3F800000#32 + Ideal.exp (-y)) = _
  rw [Ideal.ofBits_one_f32]
  rfl

/-- The reference's result is `head` of its aggregated features and its clamped in-degrees as a column. -/
theorem head_eq (x0 : (⟨S50000x128, .f32⟩ : BufTy).Contents (Elt Ideal)) (x1 x2 : (⟨S800000, .i32⟩ : BufTy).Contents (Elt Ideal)) (x3 : (⟨S128x256, .f32⟩ : BufTy).Contents (Elt Ideal)) (x4 : (⟨S256, .f32⟩ : BufTy).Contents (Elt Ideal)) (x5 : (⟨S256x16, .f32⟩ : BufTy).Contents (Elt Ideal)) (x6 : (⟨S16, .f32⟩ : BufTy).Contents (Elt Ideal)) (h : S50000.ShapeCasts S50000x1) :
    val_main_v41 (F := Ideal) x0 x1 x2 x3 x4 x5 x6
      = Cert.Gcn.head (val_main_v22 (F := Ideal) x0 x1 x2) (shapeCast S50000x1 (val_main_v8 (F := Ideal) x2) h) x3 x4 x5 x6 := by
  funext i
  obtain ⟨p, c, rfl⟩ : ∃ (p : Fin 50000) (c : Fin 16), i = ix2 p c := ⟨i 0, i 1, eq_ix2 i⟩
  rw [val_main_v41_apply, val_main_v40_apply, val_main_cst_7_apply, val_main_v39_apply, val_main_v38_apply, val_main_cst_6_apply,
    val_main_v37_apply, val_main_v36_apply, logistic_spelt, val_main_v35_apply, val_main_v32_apply, val_main_v34_apply, val_main_v33_apply]
  unfold Cert.Gcn.head
  refine congrArg Ideal.logistic ?_
  have e6 : idx_main_v33 (idx_main_v34 (ix2 p c)) = ix1 c := funext fun a => Fin.ext (by match a with | ⟨0, _⟩ => rfl)
  rw [e6]
  show (∑ k : Fin 256, _) + x6 (ix1 c) = (∑ k : Fin 256, _) + x6 (ix1 c)
  refine congrArg (· + x6 (ix1 c)) (Finset.sum_congr rfl fun k _ => ?_)
  have el : lidx_main_v32 (ix2 p c) k = ix2 p k := funext fun a => Fin.ext (by match a with | ⟨0, _⟩ => rfl | ⟨1, _⟩ => rfl)
  have er : ridx_main_v32 (ix2 p c) k = ix2 k c := funext fun a => Fin.ext (by match a with | ⟨0, _⟩ => rfl | ⟨1, _⟩ => rfl)
  rw [el, er, val_main_v31_apply, val_main_call2_v0_apply, val_main_call2_cst_apply, val_main_v30_apply, val_main_v27_apply,
    val_main_v29_apply, val_main_v28_apply]
  have e4 : idx_main_v28 (idx_main_v29 (ix2 p k)) = ix1 k := funext fun a => Fin.ext (by match a with | ⟨0, _⟩ => rfl)
  rw [e4]
  show max ((∑ j : Fin 128, _) + x4 (ix1 k)) (Ideal.ofBits .f32 0x00000000#32) * x5 (ix2 k c) = max ((∑ j : Fin 128, _) + x4 (ix1 k)) (Ideal.ofBits .f32 0x00000000#32) * x5 (ix2 k c)
  refine congrArg (fun z => max (z + x4 (ix1 k)) (Ideal.ofBits .f32 0x00000000#32) * x5 (ix2 k c)) (Finset.sum_congr rfl fun j _ => ?_)
  have el' : lidx_main_v27 (ix2 p k) j = ix2 p j := funext fun a => Fin.ext (by match a with | ⟨0, _⟩ => rfl | ⟨1, _⟩ => rfl)
  have er' : ridx_main_v27 (ix2 p k) j = ix2 j k := funext fun a => Fin.ext (by match a with | ⟨0, _⟩ => rfl | ⟨1, _⟩ => rfl)
  rw [el', er', val_main_v26_apply, val_main_v25_apply, val_main_v24_apply, val_main_v23_apply, Cert.Columns.shapeCast_a_a1_apply]
  have e8 : idx_main_v24 (idx_main_v25 (ix2 p j)) = ix1 p := funext fun a => Fin.ext (by match a with | ⟨0, _⟩ => rfl)
  rw [e8]
  generalize val_main_v22 (F := Ideal) x0 x1 x2 = A
  generalize val_main_v8 (F := Ideal) x2 = d
  rfl

/-- The whole computation as one function of the seven arguments: the features scaled by the out-degrees, aggregated
    along the edges, scaled by the in-degrees and passed through the two dense layers. -/
def result (h : S50000.ShapeCasts S50000x1) (x0 : (⟨S50000x128, .f32⟩ : BufTy).Contents (Elt Ideal)) (x1 x2 : (⟨S800000, .i32⟩ : BufTy).Contents (Elt Ideal)) (x3 : (⟨S128x256, .f32⟩ : BufTy).Contents (Elt Ideal)) (x4 : (⟨S256, .f32⟩ : BufTy).Contents (Elt Ideal)) (x5 : (⟨S256x16, .f32⟩ : BufTy).Contents (Elt Ideal)) (x6 : (⟨S16, .f32⟩ : BufTy).Contents (Elt Ideal)) :
    (⟨S50000x16, .f32⟩ : BufTy).Contents (Elt Ideal) :=
  Cert.Gcn.head (aggregate (Cert.Gcn.scaled x0 (shapeCast S50000x1 (val_main_v4 (F := Ideal) x1) h)) x1 x2)
    (shapeCast S50000x1 (val_main_v8 (F := Ideal) x2) h) x3 x4 x5 x6

/-- The reference's result is that function of its arguments. -/
theorem result_eq (h : S50000.ShapeCasts S50000x1) (x0 : (⟨S50000x128, .f32⟩ : BufTy).Contents (Elt Ideal)) (x1 x2 : (⟨S800000, .i32⟩ : BufTy).Contents (Elt Ideal)) (x3 : (⟨S128x256, .f32⟩ : BufTy).Contents (Elt Ideal)) (x4 : (⟨S256, .f32⟩ : BufTy).Contents (Elt Ideal)) (x5 : (⟨S256x16, .f32⟩ : BufTy).Contents (Elt Ideal)) (x6 : (⟨S16, .f32⟩ : BufTy).Contents (Elt Ideal)) :
    val_main_v41 (F := Ideal) x0 x1 x2 x3 x4 x5 x6 = result h x0 x1 x2 x3 x4 x5 x6 := by
  unfold result
  rw [head_eq x0 x1 x2 x3 x4 x5 x6 h, aggregate_eq, scaled_eq x0 x1 h]

end Cert.ReferenceIdeal.RefValue

end
-- ==== Proof.HostSide.lean ====
/-
  What the two calls find in their windows' arrays, as functions of the launch memory.
  Before the first call the host computes the clamped out- and in-degrees (a scatter-add of ones over the
  edge ends, then a maximum with one) and views the out-degrees as a column; the first call finds the feature
  argument as launched and that column. Between the calls the host gathers the rows of the first call's output
  at the edges' sources (negative row numbers wrapped) and scatter-adds them at the destinations, and views the
  in-degrees as a column; the second call finds that aggregate, that column and the four parameter arguments as
  launched. The degree and aggregation stages are spelt as the reference's own stages, so that the two programs'
  host chains are one function and are never opened.
-/
import proofs.«158624_j53266184405048_1_alg».proof.Proof.Gen.KernelIdeal.Frame
import proofs.«158624_j53266184405048_1_alg».proof.Proof.RefValue

set_option maxRecDepth 16384

noncomputable section

namespace Cert.KernelIdeal.HostSide

open Cert.KernelIdeal Cert.KernelIdeal.Gen
open Idealize.ShloMosaic Idealize.ShloMosaic.TcCoe Idealize.ShloMosaic.Tactic Idealize.ShloMosaic.StableHlo
open Idealize.SL Idealize.SL.Sem

variable {F : FTy → Type} [FloatOps F]
variable (m : (ℓ : Loc nD τ sig) → Buf (Elt F) ℓ) (ρ : Dev nD → PrngReg)

/-! ## At the first call's entry -/

/-- No host operation before the first call writes argument 0. -/
theorem entry0_arg0 (c : Dev nD) : W5 m ρ c (Proc.devRef .tc main_arg0) = m ((c : Thread nD τ).loc main_arg0) := by
  dsimp only [W5, W4, W3, W2, W1, hostOps0, hostOps0_1, hostOps0_2, hostOps0_3, hostOps0_4]
  after_results

/-- No host operation before the first call writes argument 1. -/
theorem entry0_arg1 (c : Dev nD) : W5 m ρ c (Proc.devRef .tc main_arg1) = m ((c : Thread nD τ).loc main_arg1) := by
  dsimp only [W5, W4, W3, W2, W1, hostOps0, hostOps0_1, hostOps0_2, hostOps0_3, hostOps0_4]
  after_results

/-- No host operation before the first call writes argument 2. -/
theorem entry0_arg2 (c : Dev nD) : W5 m ρ c (Proc.devRef .tc main_arg2) = m ((c : Thread nD τ).loc main_arg2) := by
  dsimp only [W5, W4, W3, W2, W1, hostOps0, hostOps0_1, hostOps0_2, hostOps0_3, hostOps0_4]
  after_results

/-- No host operation before the first call writes argument 3. -/
theorem entry0_arg3 (c : Dev nD) : W5 m ρ c (Proc.devRef .tc main_arg3) = m ((c : Thread nD τ).loc main_arg3) := by
  dsimp only [W5, W4, W3, W2, W1, hostOps0, hostOps0_1, hostOps0_2, hostOps0_3, hostOps0_4]
  after_results

/-- No host operation before the first call writes argument 4. -/
theorem entry0_arg4 (c : Dev nD) : W5 m ρ c (Proc.devRef .tc main_arg4) = m ((c : Thread nD τ).loc main_arg4) := by
  dsimp only [W5, W4, W3, W2, W1, hostOps0, hostOps0_1, hostOps0_2, hostOps0_3, hostOps0_4]
  after_results

/-- No host operation before the first call writes argument 5. -/
theorem entry0_arg5 (c : Dev nD) : W5 m ρ c (Proc.devRef .tc main_arg5) = m ((c : Thread nD τ).loc main_arg5) := by
  dsimp only [W5, W4, W3, W2, W1, hostOps0, hostOps0_1, hostOps0_2, hostOps0_3, hostOps0_4]
  after_results

/-- No host operation before the first call writes argument 6. -/
theorem entry0_arg6 (c : Dev nD) : W5 m ρ c (Proc.devRef .tc main_arg6) = m ((c : Thread nD τ).loc main_arg6) := by
  dsimp only [W5, W4, W3, W2, W1, hostOps0, hostOps0_1, hostOps0_2, hostOps0_3, hostOps0_4]
  after_results

/-- The clamped out-degrees at the first call's entry. -/
theorem entry0_deg_out (c : Dev nD) : W5 m ρ c (Proc.devRef .tc main_v4) = Cert.ReferenceIdeal.Read.val_main_v4 (F := F) (m ((c : Thread nD τ).loc main_arg1)) := by
  dsimp only [W5, W4, W3, W2, W1, hostOps0, hostOps0_1, hostOps0_2, hostOps0_3, hostOps0_4]
  after_results
  unfold Cert.ReferenceIdeal.Read.val_main_v4 Cert.ReferenceIdeal.Read.val_main_call0_v1 Cert.ReferenceIdeal.Read.val_main_call0_v0 Cert.ReferenceIdeal.Read.val_main_cst_1 Cert.ReferenceIdeal.Read.val_main_v3 Cert.ReferenceIdeal.Read.val_main_v1 Cert.ReferenceIdeal.Read.val_main_cst_0 Cert.ReferenceIdeal.Read.val_main_v2 Cert.ReferenceIdeal.Read.val_main_v0 Cert.ReferenceIdeal.Read.val_main_cst
  rfl

/-- The clamped in-degrees at the first call's entry. -/
theorem entry0_deg_in (c : Dev nD) : W5 m ρ c (Proc.devRef .tc main_v8) = Cert.ReferenceIdeal.Read.val_main_v8 (F := F) (m ((c : Thread nD τ).loc main_arg2)) := by
  dsimp only [W5, W4, W3, W2, W1, hostOps0, hostOps0_1, hostOps0_2, hostOps0_3, hostOps0_4]
  after_results
  unfold Cert.ReferenceIdeal.Read.val_main_v8 Cert.ReferenceIdeal.Read.val_main_call1_v1 Cert.ReferenceIdeal.Read.val_main_call1_v0 Cert.ReferenceIdeal.Read.val_main_cst_3 Cert.ReferenceIdeal.Read.val_main_v7 Cert.ReferenceIdeal.Read.val_main_v5 Cert.ReferenceIdeal.Read.val_main_cst_2 Cert.ReferenceIdeal.Read.val_main_v6 Cert.ReferenceIdeal.Read.val_main_v0 Cert.ReferenceIdeal.Read.val_main_cst
  rfl

/-- The first call's feature window is over the feature argument as launched. -/
theorem entry0_features (c : Dev nD) : V5 m ρ c main_arg0 = m ((c : Thread nD τ).loc main_arg0) := entry0_arg0 m ρ c

/-- The first call's degree window is over the clamped out-degrees viewed as a column. -/
theorem entry0_column (c : Dev nD) : V5 m ρ c main_v9
    = shapeCast S50000x1 (Cert.ReferenceIdeal.Read.val_main_v4 (F := F) (m ((c : Thread nD τ).loc main_arg1))) shapeCasts_S50000_S50000x1 := by
  show W5 m ρ c (Proc.devRef .tc main_v9) = _
  dsimp only [W5, W4, W3, W2, W1, hostOps0, hostOps0_1, hostOps0_2, hostOps0_3, hostOps0_4]
  after_results
  unfold Cert.ReferenceIdeal.Read.val_main_v4 Cert.ReferenceIdeal.Read.val_main_call0_v1 Cert.ReferenceIdeal.Read.val_main_call0_v0 Cert.ReferenceIdeal.Read.val_main_cst_1 Cert.ReferenceIdeal.Read.val_main_v3 Cert.ReferenceIdeal.Read.val_main_v1 Cert.ReferenceIdeal.Read.val_main_cst_0 Cert.ReferenceIdeal.Read.val_main_v2 Cert.ReferenceIdeal.Read.val_main_v0 Cert.ReferenceIdeal.Read.val_main_cst
  rfl

/-! ## At the second call's entry -/

/-- The first call's output array is what its write-backs leave. -/
theorem exit0_output (c : Dev nD) : W6 m ρ c (Proc.devRef .tc main_v10) = (dat0 (V5 m ρ) c).arrAt 2 cfg0.N := W6_arr m ρ c 2

/-- The second call's first window is over the aggregate of the first call's output along the edges. -/
theorem entry1_aggregate (c : Dev nD) : V7 m ρ c main_v20
    = Cert.ReferenceIdeal.RefValue.aggregate (F := F) (W6 m ρ c (Proc.devRef .tc main_v10))
        (m ((c : Thread nD τ).loc main_arg1)) (m ((c : Thread nD τ).loc main_arg2)) := by
  show W7 m ρ c (Proc.devRef .tc main_v20) = _
  dsimp only [W7, hostOps1]
  after_results
  rw [W6_of_ne m ρ c main_arg1 (by decide), W6_of_ne m ρ c main_arg2 (by decide), entry0_arg1, entry0_arg2]
  unfold Cert.ReferenceIdeal.RefValue.aggregate Cert.ReferenceIdeal.Read.val_main_v20 Cert.ReferenceIdeal.Read.val_main_cst_5 Cert.ReferenceIdeal.Read.val_main_v21 Cert.ReferenceIdeal.Read.val_main_v18 Cert.ReferenceIdeal.Read.val_main_v17
    Cert.ReferenceIdeal.Read.val_main_v16 Cert.ReferenceIdeal.Read.val_main_v15 Cert.ReferenceIdeal.Read.val_main_c_4 Cert.ReferenceIdeal.Read.val_main_v14 Cert.ReferenceIdeal.Read.val_main_v13 Cert.ReferenceIdeal.Read.val_main_c
  rfl

/-- The second call's degree window is over the clamped in-degrees viewed as a column. -/
theorem entry1_column (c : Dev nD) : V7 m ρ c main_v21
    = shapeCast S50000x1 (Cert.ReferenceIdeal.Read.val_main_v8 (F := F) (m ((c : Thread nD τ).loc main_arg2))) shapeCasts_S50000_S50000x1 := by
  show W7 m ρ c (Proc.devRef .tc main_v21) = _
  dsimp only [W7, hostOps1]
  after_results
  rw [W6_of_ne m ρ c main_v8 (by decide), entry0_deg_in]
  rfl

/-- Argument 3 reaches the second call as launched. -/
theorem entry1_arg3 (c : Dev nD) : V7 m ρ c main_arg3 = m ((c : Thread nD τ).loc main_arg3) := by
  show W7 m ρ c (Proc.devRef .tc main_arg3) = _
  dsimp only [W7, hostOps1]
  after_results
  rw [W6_of_ne m ρ c main_arg3 (by decide)]
  exact entry0_arg3 m ρ c

/-- Argument 4 reaches the second call as launched. -/
theorem entry1_arg4 (c : Dev nD) : V7 m ρ c main_arg4 = m ((c : Thread nD τ).loc main_arg4) := by
  show W7 m ρ c (Proc.devRef .tc main_arg4) = _
  dsimp only [W7, hostOps1]
  after_results
  rw [W6_of_ne m ρ c main_arg4 (by decide)]
  exact entry0_arg4 m ρ c

/-- Argument 5 reaches the second call as launched. -/
theorem entry1_arg5 (c : Dev nD) : V7 m ρ c main_arg5 = m ((c : Thread nD τ).loc main_arg5) := by
  show W7 m ρ c (Proc.devRef .tc main_arg5) = _
  dsimp only [W7, hostOps1]
  after_results
  rw [W6_of_ne m ρ c main_arg5 (by decide)]
  exact entry0_arg5 m ρ c

/-- Argument 6 reaches the second call as launched. -/
theorem entry1_arg6 (c : Dev nD) : V7 m ρ c main_arg6 = m ((c : Thread nD τ).loc main_arg6) := by
  show W7 m ρ c (Proc.devRef .tc main_arg6) = _
  dsimp only [W7, hostOps1]
  after_results
  rw [W6_of_ne m ρ c main_arg6 (by decide)]
  exact entry0_arg6 m ρ c

end Cert.KernelIdeal.HostSide

end
-- ==== Proof.KernelValue.lean ====
/-
  The kernel program's result as a function of the launch memory: the second call's output array is `head` of
  what that call finds, which is the aggregate of the first call's output — `scaled` of what the first call
  finds — the in-degree column and the four parameters; what the calls find are the host stages of the arguments.
-/
import proofs.«158624_j53266184405048_1_alg».proof.Proof.KernelRun
import proofs.«158624_j53266184405048_1_alg».proof.Proof.Region0
import proofs.«158624_j53266184405048_1_alg».proof.Proof.Region1
import proofs.«158624_j53266184405048_1_alg».proof.Proof.HostSide

set_option maxRecDepth 16384

noncomputable section

namespace Cert.KernelIdeal.KernelValue

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The result buffer's last contents are the whole computation of the seven arguments as launched. -/
theorem result_value (c : Dev nD) : W8 m ρ c (Proc.devRef .tc main_v22)
    = Cert.ReferenceIdeal.RefValue.result shapeCasts_S50000_S50000x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Cert.ReferenceIdeal.RefValue.result
  rw [Cert.KernelIdeal.RunValue.result_arr, Cert.KernelIdeal.Region1.final (V7 m ρ) c,
    Cert.KernelIdeal.HostSide.entry1_aggregate, Cert.KernelIdeal.HostSide.entry1_column,
    Cert.KernelIdeal.HostSide.entry1_arg3, Cert.KernelIdeal.HostSide.entry1_arg4, Cert.KernelIdeal.HostSide.entry1_arg5,
    Cert.KernelIdeal.HostSide.entry1_arg6, Cert.KernelIdeal.HostSide.exit0_output, Cert.KernelIdeal.Region0.final (V5 m ρ) c,
    Cert.KernelIdeal.HostSide.entry0_features, Cert.KernelIdeal.HostSide.entry0_column]

end Cert.KernelIdeal.KernelValue

end
-- ==== Proof.lean ====
/-
  A two-layer graph convolution head: kernel program against reference, on the extended reals.

  Both programs clamp the out- and in-degrees of the graph at one, scale each node's features by the inverse
  square root of its out-degree, sum the scaled features of each node's in-neighbours (a gather of rows along
  the edges and a scatter-add), scale the sums by the inverse square root of the in-degree, and apply two dense
  layers: weights, bias and a clamp below at zero; weights, bias and the logistic function.

  The kernel program does the two scalings and the dense layers in two row-blocked calls (ten blocks of 5000
  nodes each); the degree counts and the aggregation along the edges are host operations in both programs, in
  the same words, and are carried through the proof as one function of the arguments that is never opened. On the
  extended reals a change of float format is the identity, a block product into a zero accumulator is the plain
  sum over the contracted position, and the kernel's logistic operation is the reference's one over one plus
  the exponential of the negation; the two programs apply the same operations in the same order, so no law that
  needs finite operands is used and the precondition is never opened. Reading the kernel program on the extended
  reals rewrites none of its operations.
-/
import proofs.«158624_j53266184405048_1_alg».proof.Defs
import proofs.«158624_j53266184405048_1_alg».proof.Proof.Gen.Kernel
import proofs.«158624_j53266184405048_1_alg».proof.Proof.Gen.Kernel.Frame
import proofs.«158624_j53266184405048_1_alg».proof.Proof.Gen.KernelIdeal
import proofs.«158624_j53266184405048_1_alg».proof.Proof.Gen.KernelIdeal.Frame
import proofs.«158624_j53266184405048_1_alg».proof.Proof.Gen.ReferenceIdeal
import proofs.«158624_j53266184405048_1_alg».proof.Proof.Gen.ReferenceIdeal.Run
import proofs.«158624_j53266184405048_1_alg».proof.Proof.Gen.ReferenceIdeal.Read
import proofs.«158624_j53266184405048_1_alg».proof.Proof.Gen.Pre_finite_inputs
import proofs.«158624_j53266184405048_1_alg».proof.Proof.KernelRun
import proofs.«158624_j53266184405048_1_alg».proof.Proof.KernelValue
import proofs.«158624_j53266184405048_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel program is rewritten when it is read on the extended reals. -/
theorem preserves : Cert.preserves_Kernel_KernelIdeal := trivial

/-- From memories that agree on the seven arguments both programs end with the whole computation of those
    arguments in their result arrays. -/
theorem algebraic : Cert.algebraic_KernelIdeal_ReferenceIdeal := by
  intro m ρ m' ρ' _ hagree
  refine ⟨fun c => Cert.ReferenceIdeal.RefValue.result Cert.KernelIdeal.Gen.shapeCasts_S50000_S50000x1
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KernelValue.result_value m ρ c), (h c).2⟩)
      (Cert.KernelIdeal.RunValue.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6⟩ := hagree c
    refine (Cert.ReferenceIdeal.Read.val_main_v41_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans ?_
    rw [Cert.ReferenceIdeal.RefValue.result_eq Cert.KernelIdeal.Gen.shapeCasts_S50000_S50000x1, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
